-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : FVec F S50000x128 .f32) (main_arg2 : FVec F S800000 .f32) (main_arg3 : IVec S800000 32) (main_arg4 : IVec S800000 32) (main_arg5 : FVec F S128x128 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 24
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x256, .f32⟩
  | .local _ .vmem, ⟨7, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DualProjSpec.lean ====
/-
  The function both programs compute, stated once over plain arrays of extended reals.

  Two products of a [50000, 128] array with a [128, 128] matrix, each entry then taken against zero by a maximum,
  laid side by side along the columns of a [50000, 256] result. For a row `r`:
    * column `c < 128` holds `max (∑ k, S[r, k] * Ws[k, c]) 0`: the node's own features through its own weights;
    * column `c ≥ 128` holds `max (∑ k, N[r, k] * Wn[k, c - 128]) 0`: the aggregated neighbour features through the
      neighbour weights.
  Both programs spell these very sums, of the same products, over the same 128 values of `k`; the only law of arithmetic
  that joins them is `0 + x = x` (a product accumulated into a zero). That law holds for every extended real, so
  nothing below asks an entry to be finite.
-/
import Idealize.ShloMosaic.PureOps.Ideal
import Idealize.ShloMosaic.Lib.ValueIdx

noncomputable section

open scoped BigOperators

namespace Cert.DualProj

open Idealize.ShloMosaic Idealize.ShloMosaic.ValueIdx

/-- The three literal shapes of the statement: a feature array, a weight matrix, the result. -/
abbrev Feat : Shape := ⟨2, ![50000, 128]⟩
abbrev Wt : Shape := ⟨2, ![128, 128]⟩
abbrev Res : Shape := ⟨2, ![50000, 256]⟩

/-- One entry of a product, clamped below at zero: row `r` of `X` against column `c` of `W`. The rows are counted by
    any `n` so that the same words describe the whole array (50000 rows) and one block of it (5000 rows). -/
def reluDot {n : Nat} (X : (⟨2, ![n, 128]⟩ : Shape).Idx → EReal) (W : Wt.Idx → EReal) (r : Fin n) (c : Fin 128) : EReal :=
  max (∑ k : Fin 128, X (ix2 r k) * W (ix2 k c)) 0

/-- The result at row `r`, column `c`: the left half is the node's own projection, the right half the neighbours'.
    Again over any number of rows: the whole result has 50000, one block of it 5000. -/
def entry {n : Nat} (N S : (⟨2, ![n, 128]⟩ : Shape).Idx → EReal) (Wn Ws : Wt.Idx → EReal) (r : Fin n) (c : Fin 256) : EReal :=
  if h : c.val < 128 then reluDot S Ws r ⟨c.val, h⟩
  else reluDot N Wn r ⟨c.val - 128, by have := c.isLt; omega⟩

/-- An entry depends only on ONE ROW of each feature array (and on the weights): two pairs of arrays, of whatever
    heights, whose rows `r` and `r'` agree give the same entry there. This is what lets a block of rows stand for the
    rows of the whole array it was cut from. -/
theorem entry_congr {n n' : Nat} (N S : (⟨2, ![n, 128]⟩ : Shape).Idx → EReal) (N' S' : (⟨2, ![n', 128]⟩ : Shape).Idx → EReal)
    (Wn Ws Wn' Ws' : Wt.Idx → EReal) (r : Fin n) (r' : Fin n') (c : Fin 256)
    (hN : ∀ k : Fin 128, N (ix2 r k) = N' (ix2 r' k)) (hS : ∀ k : Fin 128, S (ix2 r k) = S' (ix2 r' k))
    (hWn : Wn = Wn') (hWs : Ws = Ws') :
    entry N S Wn Ws r c = entry N' S' Wn' Ws' r' c := by
  subst hWn hWs
  unfold entry reluDot
  by_cases h : c.val < 128
  · rw [dif_pos h, dif_pos h]
    exact congrArg (max · 0) (Finset.sum_congr rfl fun k _ => by rw [hS k])
  · rw [dif_neg h, dif_neg h]
    exact congrArg (max · 0) (Finset.sum_congr rfl fun k _ => by rw [hN k])

/-- The whole result array, as one function of the four arrays it is computed from. -/
def G (N S : Feat.Idx → EReal) (Wn Ws : Wt.Idx → EReal) : Res.Idx → EReal :=
  fun i => entry N S Wn Ws (i 0) (i 1)

/-- At an index given by its coordinates the result is the entry. -/
theorem G_ix2 (N S : Feat.Idx → EReal) (Wn Ws : Wt.Idx → EReal) (r : Fin 50000) (c : Fin 256) :
    G N S Wn Ws (ix2 r c) = entry N S Wn Ws r c := rfl

end Cert.DualProj

end
-- ==== Proof.ReferenceIsSpec.lean ====
/-
  The reference's result, read one entry at a time, is the specification `Cert.DualProj.G`.

  The reference forms the two products whole — `S · Ws` and `N · Wn`, each a [50000, 128] array —, joins them along the
  columns (own projection first, neighbours' second) and takes the maximum with zero entry by entry. An entry in
  column `c < 128` therefore comes from the first product at column `c`, one in column `c ≥ 128` from the second at
  column `c - 128`; either way it is a sum over the 128 contracted positions of row times column, which is `reluDot`.
  The aggregated neighbour array `N` is left as the reference computes it (a scatter-add of weighted gathered rows):
  it enters only as an array whose entries are read.
-/
import proofs.«173765_j35845797052746_1_alg».proof.Proof.Gen.ReferenceIdeal.Read
import proofs.«173765_j35845797052746_1_alg».proof.Proof.DualProjSpec

noncomputable section

open scoped BigOperators

namespace Cert.DualProj.RefSide

open Cert.ReferenceIdeal Cert.ReferenceIdeal.Gen Cert.ReferenceIdeal.Read
open Idealize.ShloMosaic Idealize.ShloMosaic.ValueIdx

/-- The own-feature product at row `r`, column `c`: the sum over `k` of `S[r, k] * Ws[k, c]`. -/
theorem ownProduct_apply (x1 : (⟨S50000x128, .f32⟩ : BufTy).Contents (Elt Ideal)) (x6 : (⟨S128x128, .f32⟩ : BufTy).Contents (Elt Ideal))
    (r : Fin 50000) (c : Fin 128) :
    val_main_v14 (F := Ideal) x1 x6 (ix2 r c) = ∑ k : Fin 128, x1 (ix2 r k) * x6 (ix2 k c) := by
  rw [val_main_v14_apply]
  refine Finset.sum_congr rfl fun k _ => ?_
  rw [show lidx_main_v14 (ix2 r c) k = ix2 r k from
        funext fun a => Fin.ext (by match a with | ⟨0, _⟩ => rfl | ⟨1, _⟩ => rfl),
      show ridx_main_v14 (ix2 r c) k = ix2 k c from
        funext fun a => Fin.ext (by match a with | ⟨0, _⟩ => rfl | ⟨1, _⟩ => rfl)]

/-- The neighbour product at row `r`, column `c`: the sum over `k` of `N[r, k] * Wn[k, c]`, with `N` the reference's
    aggregated neighbour array. -/
theorem neighProduct_apply (x0 : (⟨S50000x128, .f32⟩ : BufTy).Contents (Elt Ideal)) (x2 : (⟨S800000, .f32⟩ : BufTy).Contents (Elt Ideal))
    (x3 x4 : (⟨S800000, .i32⟩ : BufTy).Contents (Elt Ideal)) (x5 : (⟨S128x128, .f32⟩ : BufTy).Contents (Elt Ideal))
    (r : Fin 50000) (c : Fin 128) :
    val_main_v13 (F := Ideal) x0 x2 x3 x4 x5 (ix2 r c)
      = ∑ k : Fin 128, val_main_v12 (F := Ideal) x0 x2 x3 x4 (ix2 r k) * x5 (ix2 k c) := by
  rw [val_main_v13_apply]
  refine Finset.sum_congr rfl fun k _ => ?_
  rw [show lidx_main_v13 (ix2 r c) k = ix2 r k from
        funext fun a => Fin.ext (by match a with | ⟨0, _⟩ => rfl | ⟨1, _⟩ => rfl),
      show ridx_main_v13 (ix2 r c) k = ix2 k c from
        funext fun a => Fin.ext (by match a with | ⟨0, _⟩ => rfl | ⟨1, _⟩ => rfl)]

/-- The zero the reference clamps against is the extended real `0`. -/
theorem clampZero_apply (i : S50000x256.Idx) : val_main_call0_v0 (F := Ideal) i = 0 := by
  rw [val_main_call0_v0_apply, val_main_call0_cst_apply]
  exact Ideal.ofBits_zero_f32

/-- THE REFERENCE IS THE SPECIFICATION: its result array is `G` of its aggregated neighbour array, the own features and
    the two weight matrices. -/
theorem result_eq (x0 x1 : (⟨S50000x128, .f32⟩ : BufTy).Contents (Elt Ideal)) (x2 : (⟨S800000, .f32⟩ : BufTy).Contents (Elt Ideal))
    (x3 x4 : (⟨S800000, .i32⟩ : BufTy).Contents (Elt Ideal)) (x5 x6 : (⟨S128x128, .f32⟩ : BufTy).Contents (Elt Ideal)) :
    val_main_v16 (F := Ideal) x0 x1 x2 x3 x4 x5 x6
      = Cert.DualProj.G (val_main_v12 (F := Ideal) x0 x2 x3 x4) x1 x5 x6 := by
  funext i
  obtain ⟨r, c, rfl⟩ : ∃ (r : Fin 50000) (c : Fin 256), i = ix2 r c := ⟨i 0, i 1, eq_ix2 i⟩
  rw [val_main_v16_apply, clampZero_apply, Cert.DualProj.G_ix2]
  show max (val_main_v15 (F := Ideal) x0 x1 x2 x3 x4 x5 x6 (ix2 r c)) 0 = _
  unfold val_main_v15 Cert.DualProj.entry
  by_cases h : c.val < 128
  · -- the left half: the first joined piece, at the same row and column
    rw [dif_pos h,
      concatenate_pair_apply_left (t := S50000x256) (s₁ := S50000x128) (s₂ := S50000x128) (1 : Fin 2) _ _
        concatenates_S50000x128_S50000x128_S50000x256_d1 (ix2 r c) rfl
        (ix2 r (⟨c.val, h⟩ : Fin 128)) (fun b => by match b with | ⟨0, _⟩ => rfl | ⟨1, _⟩ => rfl),
      ownProduct_apply]
    rfl
  · -- the right half: the second joined piece, 128 columns to the left
    have hc : c.val < 256 := c.isLt
    rw [dif_neg h,
      concatenate_pair_apply_right (t := S50000x256) (s₁ := S50000x128) (s₂ := S50000x128) (1 : Fin 2) _ _
        concatenates_S50000x128_S50000x128_S50000x256_d1 (ix2 r c) rfl rfl
        (ix2 r (⟨c.val - 128, by omega⟩ : Fin 128))
        (fun b hb => by
          match b with
          | ⟨0, _⟩ => rfl
          | ⟨1, _⟩ => exact absurd (Fin.ext rfl) hb)
        (by show c.val - 128 + 128 = c.val; omega),
      neighProduct_apply]
    rfl

end Cert.DualProj.RefSide

end
-- ==== Proof.KernelPayload.lean ====
/-
  What the kernel's body computes from one point's blocks, read one entry at a time.

  At a grid point the body holds a [5000, 128] block of the aggregated neighbour array, the matching block of the own
  features, and the two whole [128, 128] weight matrices. It narrows all four to bf16 — the identity on extended reals
  —, multiplies each feature block by its matrix into a zero accumulator, takes the maximum with zero, and stores the own
  projection in columns 0..127 of its [5000, 256] output block and the neighbours' in columns 128..255. So each stored
  value, at row `p` and column `q` of its half, is `max (∑ k, X[p, k] * W[k, q]) 0` for its feature block `X` and matrix
  `W`: `reluDot` over a block of 5000 rows. The zero accumulator drops out by `0 + x = x`.
-/
import proofs.«173765_j35845797052746_1_alg».proof.Proof.Gen.KernelIdeal.Skeleton
import proofs.«173765_j35845797052746_1_alg».proof.Proof.DualProjSpec
import Idealize.ShloMosaic.Lib.ValueIdx
import Idealize.ShloMosaic.Lib.Pipeline.Value
import Idealize.ShloMosaic.PureOps.Ideal.Laws

noncomputable section

open scoped BigOperators

namespace Cert.DualProj.KernelSide

open Cert.KernelIdeal Cert.KernelIdeal.Gen
open Idealize.ShloMosaic Idealize.ShloMosaic.ValueIdx

/-- Which entries a product's entry reads. The product contracts the block's columns against the matrix's rows, so for
    the result's entry `j` and contracted position `k` the block is read at row `j 0`, column `k` … -/
theorem blockRow (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem blockCol (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
/-- … and the matrix at row `k`, column `j 1`. -/
theorem matrixRow (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem matrixCol (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000, 128] block times a [128, 128] matrix, accumulated into zeros, at row `p` and column `q`: the sum over the
    128 contracted positions of row entry times column entry. -/
theorem blockProduct_apply (l : FVec Ideal S5000x128 .bf16) (w : FVec Ideal S128x128 .bf16) (p : Fin 5000) (q : Fin 128) :
    matmul dot_S5000x128_S128x128_S5000x128_1_0_0_1_n_n none l w (constant (F := Ideal) S5000x128 .f32 0x00000000#32) (ix2 p q)
      = ∑ k : Fin 128, l (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact blockRow _ _
      | ⟨1, _⟩ => exact (blockCol _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (matrixRow _ _).trans hk
      | ⟨1, _⟩ => exact matrixCol _ _)
  rw [el, er]

/-- The value stored in columns 0..127: the own-feature block `sv` through the own weights `sw`. -/
theorem ownPayload_apply (sv : Vec Ideal S5000x128 .f32) (sw : Vec Ideal S128x128 .f32) (p : Fin 5000) (q : Fin 128) :
    k0_pay1 (F := Ideal) sv sw (ix2 p q) = Cert.DualProj.reluDot sv sw p q := by
  unfold k0_pay1 Cert.DualProj.reluDot
  rw [maximumf_apply, blockProduct_apply]
  show max (∑ k : Fin 128, sv (ix2 p k) * sw (ix2 k q)) (Ideal.ofBits .f32 0x00000000#32) = _
  rw [Ideal.ofBits_zero_f32]

/-- The value stored in columns 128..255: the neighbour block `nm` through the neighbour weights `nw` (the body's
    cast of the block to its own shape changes nothing). -/
theorem neighPayload_apply (nm : Vec Ideal S5000x128 .f32) (nw : Vec Ideal S128x128 .f32) (p : Fin 5000) (q : Fin 128) :
    k0_pay2 (F := Ideal) nm nw (ix2 p q) = Cert.DualProj.reluDot nm nw p q := by
  unfold k0_pay2 Cert.DualProj.reluDot
  rw [maximumf_apply, blockProduct_apply, shapeCast_self]
  show max (∑ k : Fin 128, nm (ix2 p k) * nw (ix2 k q)) (Ideal.ofBits .f32 0x00000000#32) = _
  rw [Ideal.ofBits_zero_f32]

end Cert.DualProj.KernelSide

end
-- ==== Proof.OutBlock.lean ====
/-
  One grid point's output block, entry by entry.

  The body stores twice into its [5000, 256] output block: the own projection into columns 0..127 and the neighbours'
  projection into columns 128..255, each a [5000, 128] piece. The two pieces cover the block, and each is the
  specification's `entry` restricted to its columns (`KernelPayload`), so the block as a whole is `entry` of the four
  blocks the body loaded: feature rows by their row, the column deciding which half.
-/
import proofs.«173765_j35845797052746_1_alg».proof.Proof.Gen.KernelIdeal.Frame
import proofs.«173765_j35845797052746_1_alg».proof.Proof.KernelPayload
import Idealize.ShloMosaic.Lib.Pipeline.Value

set_option maxRecDepth 16384

noncomputable section

open scoped BigOperators

namespace Cert.DualProj.KernelSide

open Cert.KernelIdeal Cert.KernelIdeal.Gen
open Idealize.ShloMosaic Idealize.ShloMosaic.TcCoe Idealize.SL.Sem Idealize.ShloMosaic.ValueIdx
open Idealize.ShloMosaic.Pipeline (Dat)

/-! ## One point's output block -/

theorem zeroOffsets : (![0, 0] : Fin 2 → Nat) = fun _ => 0 := funext fun a => by fin_cases a <;> rfl

/-- THE BODY'S OUTPUT BLOCK, entry by entry: the specification's entry of the four blocks the body loaded. The store
    into columns 0..127 carries the own projection, the store into columns 128..255 the neighbours'; together they
    cover the block. -/
theorem outBlock_apply (x0 x1 : Vec Ideal S5000x128 .f32) (x2 x3 : Vec Ideal S128x128 .f32) (y : S5000x256.Idx) :
    out0_4 (F := Ideal) x0 x1 x2 x3 y = Cert.DualProj.entry x0 x1 x2 x3 (y 0) (y 1) := by
  unfold out0_4
  refine View.canon_apply_of_pieces (Val := Elt Ideal) (S := S5000x256) (e := .f32)
    (fun y : S5000x256.Idx => Cert.DualProj.entry x0 x1 x2 x3 (y 0) (y 1)) _ ?_ y (cover0_4 (F := Ideal) _ _ y)
  intro pc hpc x
  simp only [List.mem_cons, List.not_mem_nil, or_false] at hpc
  rcases hpc with rfl | rfl
  · -- the later store: columns 128..255, from the neighbour block and the neighbour weights
    obtain ⟨p, q, rfl⟩ : ∃ (p : Fin 5000) (q : Fin 128), x = ix2 p q := ⟨x 0, x 1, eq_ix2 x⟩
    show k0_pay2 (View.ld x0 r0_0) (View.ld x2 r0_1) (ix2 p q)
      = Cert.DualProj.entry x0 x1 x2 x3 (r0_3.emb (ix2 p q) 0) (r0_3.emb (ix2 p q) 1)
    rw [View.ld_unit_zero zeroOffsets, View.ld_unit_zero zeroOffsets, neighPayload_apply]
    have e0 : r0_3.emb (ix2 p q) 0 = p := Fin.ext (by show 0 + 1 * p.val = p.val; omega)
    have e1 : (r0_3.emb (ix2 p q) 1).val = 128 + 1 * q.val := rfl
    unfold Cert.DualProj.entry
    rw [dif_neg (by omega), e0]
    exact congrArg (Cert.DualProj.reluDot x0 x2 p) (Fin.ext (by show q.val = (r0_3.emb (ix2 p q) 1).val - 128; omega))
  · -- the earlier store: columns 0..127, from the own-feature block and the own weights
    obtain ⟨p, q, rfl⟩ : ∃ (p : Fin 5000) (q : Fin 128), x = ix2 p q := ⟨x 0, x 1, eq_ix2 x⟩
    show k0_pay1 (View.ld x1 r0_0) (View.ld x3 r0_1) (ix2 p q)
      = Cert.DualProj.entry x0 x1 x2 x3 (r0_2.emb (ix2 p q) 0) (r0_2.emb (ix2 p q) 1)
    rw [View.ld_unit_zero zeroOffsets, View.ld_unit_zero zeroOffsets, ownPayload_apply]
    have e0 : r0_2.emb (ix2 p q) 0 = p := Fin.ext (by show 0 + 1 * p.val = p.val; omega)
    have e1 : (r0_2.emb (ix2 p q) 1).val = 0 + 1 * q.val := rfl
    have hq : q.val < 128 := q.isLt
    unfold Cert.DualProj.entry
    rw [dif_pos (by omega), e0]
    exact congrArg (Cert.DualProj.reluDot x1 x3 p) (Fin.ext (by show q.val = (r0_2.emb (ix2 p q) 1).val; omega))

end Cert.DualProj.KernelSide

end
-- ==== Proof.BlockPlacement.lean ====
/-
  Where the ten grid points' blocks sit in their arrays.

  Point `t` takes block row `t` of the two [50000, 128] feature arrays (5000 rows each) and of the [50000, 256] result,
  and the one block that is the whole of each [128, 128] weight matrix; no window moves along the columns. These are
  facts about the printed index maps at ten points, decided by evaluation. Consequently an index of the result lies
  in point `t`'s block exactly when its row is in `5000 t .. 5000 t + 4999`, and every index lies in the block of
  the point `row / 5000`: the blocks tile the result.
-/
import proofs.«173765_j35845797052746_1_alg».proof.Proof.Gen.KernelIdeal.Value
import Idealize.ShloMosaic.Lib.Pipeline.Value
import Idealize.ShloMosaic.Lib.ValueIdx

set_option maxRecDepth 16384

noncomputable section

open scoped BigOperators

namespace Cert.DualProj.KernelSide

open Cert.KernelIdeal Cert.KernelIdeal.Gen
open Idealize.ShloMosaic Idealize.ShloMosaic.TcCoe Idealize.SL.Sem Idealize.ShloMosaic.ValueIdx
open Idealize.ShloMosaic.Pipeline (Dat)

/-! ## Where each window's block sits -/

/-- The printed index maps, decided over the ten points: the two feature windows move down the rows with the output
    window; the weight windows stay at the whole matrix; no window moves along the columns; the output's block row is
    at most 9. -/
theorem blockIndices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every one of the ten row blocks of the result is SOME point's. -/
theorem blockOnto : ∀ q0 : Fin 10, ∃ t : Fin cfg0.N, win0_4.index t = ![q0.val, 0] :=
  (by decide +kernel : ∀ q0 : Fin 10, ∃ t : Fin grid0.N, win0_4.index t = ![q0.val, 0])

/-! ## The blocks tile the result -/

/-- An index of the result is in point `t`'s block iff each coordinate is in the block's range on its axis. -/
theorem mem_block (t : Fin cfg0.N) (i : S50000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v13).slice (win0_4.rect t)).set ↔ _
  rw [View.set_slice_whole, Rect.mem_set_unit]
  exact Iff.rfl

/-- EVERY index of the result is in some point's block: row `r` is in block `r / 5000`, whatever the column. -/
theorem covered (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := blockOnto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 256 ≤ (i 1).val ∧ (i 1).val < win0_4.index t (1 : Fin 2) * 256 + 256
    omega

end Cert.DualProj.KernelSide

end
-- ==== Proof.BlockOfSpec.lean ====
/-
  A block of the specification is the specification of the blocks.

  Take ANY four arrays: two [50000, 128] feature arrays and two [128, 128] weight matrices. At grid point `t` the
  kernel's windows cut out rows `5000 t .. 5000 t + 4999` of each feature array and the whole of each matrix. An
  entry of the specification reads one row of each feature array and the matrices; row `p` of the cut-out block is row
  `5000 t + p` of the array. So `entry` of the four blocks at row `p`, column `q` is `G` of the four arrays at the
  place where the output window's block `t` puts its local index `(p, q)`, namely row `5000 t + p`, column `q`.
  The arrays are variables here on purpose: nothing about where they come from is used.
-/
import proofs.«173765_j35845797052746_1_alg».proof.Proof.Gen.KernelIdeal.Frame
import proofs.«173765_j35845797052746_1_alg».proof.Proof.BlockPlacement
import proofs.«173765_j35845797052746_1_alg».proof.Proof.DualProjSpec
import Idealize.ShloMosaic.Lib.Pipeline.Value
import Idealize.ShloMosaic.Lib.ValueIdx

set_option maxRecDepth 16384

noncomputable section

open scoped BigOperators

namespace Cert.DualProj.KernelSide

open Cert.KernelIdeal Cert.KernelIdeal.Gen
open Idealize.ShloMosaic Idealize.ShloMosaic.TcCoe Idealize.SL.Sem Idealize.ShloMosaic.ValueIdx
open Idealize.ShloMosaic.Pipeline (Dat)

/-- THE BLOCK OF `G` AT POINT `t`, entry by entry, from the four windows' blocks at `t` of any four arrays. -/
theorem block_eq (N S : S50000x128.Idx → EReal) (Wn Ws : S128x128.Idx → EReal) (t : Fin cfg0.N) (p : Fin 5000) (q : Fin 256) :
    Cert.DualProj.entry
        (((cfg0.win 0).blk t).view.read (Elt Ideal) N) (((cfg0.win 1).blk t).view.read (Elt Ideal) S)
        (((cfg0.win 2).blk t).view.read (Elt Ideal) Wn) (((cfg0.win 3).blk t).view.read (Elt Ideal) Ws) p q
      = Cert.DualProj.G N S Wn Ws (((cfg0.win 4).blk t).view.emb (ix2 p q)) := by
  obtain ⟨e00, e01, e10, e11, e20, e21, e30, e31, e41, e4le⟩ := blockIndices t
  have hp : p.val < 5000 := p.isLt
  have hq : q.val < 256 := q.isLt
  have r0 : (((cfg0.win 4).blk t).view.emb (ix2 p q) 0).val = win0_4.index t (0 : Fin 2) * 5000 + 1 * p.val := rfl
  have r1 : (((cfg0.win 4).blk t).view.emb (ix2 p q) 1).val = win0_4.index t (1 : Fin 2) * 256 + 1 * q.val := rfl
  have hcol : ((cfg0.win 4).blk t).view.emb (ix2 p q) 1 = q := Fin.ext (by rw [r1]; omega)
  show _ = Cert.DualProj.entry N S Wn Ws (((cfg0.win 4).blk t).view.emb (ix2 p q) 0)
    (((cfg0.win 4).blk t).view.emb (ix2 p q) 1)
  rw [hcol]
  refine Cert.DualProj.entry_congr _ _ _ _ _ _ _ _ p (((cfg0.win 4).blk t).view.emb (ix2 p q) 0) q ?_ ?_ ?_ ?_
  · -- row `p` of the first feature block is row `5000 t + p` of its array
    intro k
    have hk : k.val < 128 := k.isLt
    show N (((cfg0.win 0).blk t).view.emb (ix2 p k)) = N (ix2 (((cfg0.win 4).blk t).view.emb (ix2 p q) 0) k)
    refine congrArg N (funext fun a => Fin.ext ?_)
    match a with
    | ⟨0, _⟩ =>
      show win0_0.index t (0 : Fin 2) * 5000 + 1 * p.val = (((cfg0.win 4).blk t).view.emb (ix2 p q) 0).val
      rw [r0]; omega
    | ⟨1, _⟩ => show win0_0.index t (1 : Fin 2) * 128 + 1 * k.val = k.val; omega
  · -- and of the second
    intro k
    have hk : k.val < 128 := k.isLt
    show S (((cfg0.win 1).blk t).view.emb (ix2 p k)) = S (ix2 (((cfg0.win 4).blk t).view.emb (ix2 p q) 0) k)
    refine congrArg S (funext fun a => Fin.ext ?_)
    match a with
    | ⟨0, _⟩ =>
      show win0_1.index t (0 : Fin 2) * 5000 + 1 * p.val = (((cfg0.win 4).blk t).view.emb (ix2 p q) 0).val
      rw [r0]; omega
    | ⟨1, _⟩ => show win0_1.index t (1 : Fin 2) * 128 + 1 * k.val = k.val; omega
  · -- the first matrix's one block is the whole matrix
    funext j
    show Wn (((cfg0.win 2).blk t).view.emb j) = Wn j
    refine congrArg Wn (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  · -- and so is the second's
    funext j
    show Ws (((cfg0.win 3).blk t).view.emb j) = Ws j
    refine congrArg Ws (funext fun a => Fin.ext ?_)
    match a with
    | ⟨0, _⟩ => show win0_3.index t (0 : Fin 2) * 128 + 1 * (j 0).val = (j 0).val; omega
    | ⟨1, _⟩ => show win0_3.index t (1 : Fin 2) * 128 + 1 * (j 1).val = (j 1).val; omega

end Cert.DualProj.KernelSide

end
-- ==== Proof.NeighArray.lean ====
/-
  The aggregated neighbour array, as the kernel finds it.

  Before the kernel is launched the host operations build the array the kernel's first window stages: every edge's
  weight times the feature row its column index names, scatter-added into the row its row index names, starting from
  zeros. The reference builds its own aggregated array by the same operations in the same order, so the buffer the
  kernel finds holds the reference's term of the same four arguments. Nothing about gathers or scatters is used
  beyond their being the same functions on both sides.
-/
import proofs.«173765_j35845797052746_1_alg».proof.Proof.Gen.KernelIdeal.Frame
import proofs.«173765_j35845797052746_1_alg».proof.Proof.Gen.ReferenceIdeal.Read
import Idealize.ShloMosaic.Lib.StableHlo.Run

set_option maxRecDepth 16384

noncomputable section

open scoped BigOperators

namespace Cert.DualProj.KernelSide

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The neighbour array the kernel finds -/

/-- The host operations before the launch leave, in the buffer the kernel's first window stages, the reference's own
    aggregated neighbour array of the same four arguments: the same operations in the same order. -/
theorem neighArray_eq (c : Dev nD) :
    (V m c main_v12 : S50000x128.Idx → EReal)
      = Cert.ReferenceIdeal.Read.val_main_v12 (F := Ideal) (m ((c : Thread nD τ).loc main_arg0))
          (m ((c : Thread nD τ).loc main_arg2)) (m ((c : Thread nD τ).loc main_arg3)) (m ((c : Thread nD τ).loc main_arg4)) := by
  dsimp only [V, hostOps0]
  after_results
  rfl

end Cert.DualProj.KernelSide

end
-- ==== Proof.KernelBlocks.lean ====
/-
  From the kernel's blocks to its whole result array.

  What point `t` writes back is its output block (`OutBlock`: the specification's `entry` of the blocks it loaded). An
  entry reads ONE row of each feature array, and row `p` of block `t` IS row `5000 t + p` of the array
  (`BlockPlacement`), while each weight block is the whole matrix; so the block written at point `t` is block `t` of
  `G` of the whole arrays. The ten blocks tile the result, hence the array ends holding `G` — of the neighbour array the
  host operations left (`NeighArray`: the reference's own term), the own features and the two weight matrices.
-/
import proofs.«173765_j35845797052746_1_alg».proof.Proof.Gen.KernelIdeal.Value
import proofs.«173765_j35845797052746_1_alg».proof.Proof.OutBlock
import proofs.«173765_j35845797052746_1_alg».proof.Proof.BlockPlacement
import proofs.«173765_j35845797052746_1_alg».proof.Proof.BlockOfSpec
import proofs.«173765_j35845797052746_1_alg».proof.Proof.NeighArray
import Idealize.ShloMosaic.Lib.Pipeline.Value

set_option maxRecDepth 16384

noncomputable section

open scoped BigOperators

namespace Cert.DualProj.KernelSide

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back -/

/-- WHAT POINT `t` WRITES BACK is block `t` of `G` of the arrays as the kernel finds them: the neighbour array the host
    operations left, the own features, the two weight matrices. The body's block is `entry` of the blocks it loaded
    (`outBlock_apply`), and that is the block of `G` (`block_eq`, at these four arrays). -/
theorem flushed_eq (c : Dev nD) (t : Fin cfg0.N) :
    (dats m 0 c).flushed 4 t = ((cfg0.win 4).blk t).view.read (Elt Ideal)
      (Cert.DualProj.G (V m c main_v12) (V m c main_arg1) (V m c main_arg5) (V m c main_arg6)) := by
  rw [Cert.KernelIdeal.Value.flushed4]
  funext y
  obtain ⟨p, q, rfl⟩ : ∃ (p : Fin 5000) (q : Fin 256), y = ix2 p q := ⟨y 0, y 1, eq_ix2 y⟩
  show out0_4 (iblk m c 0 t) (iblk m c 1 t) (iblk m c 2 t) (iblk m c 3 t) (ix2 p q)
    = Cert.DualProj.G (V m c main_v12) (V m c main_arg1) (V m c main_arg5) (V m c main_arg6)
        (((cfg0.win 4).blk t).view.emb (ix2 p q))
  rw [outBlock_apply (iblk m c 0 t) (iblk m c 1 t) (iblk m c 2 t) (iblk m c 3 t) (ix2 p q)]
  exact block_eq (V m c main_v12) (V m c main_arg1) (V m c main_arg5) (V m c main_arg6) t p q

/-- THE RESULT ARRAY after the run is `G` of the arrays as the kernel finds them. -/
theorem final (c : Dev nD) :
    (dats m 0 c).arrAt 4 cfg0.N
      = Cert.DualProj.G (V m c main_v12) (V m c main_arg1) (V m c main_arg5) (V m c main_arg6) :=
  (dats m 0 c).arrAt_eq_of_cover 4 _ (fun t _ => flushed_eq m c t) covered

/-! ## The kernel's run, read -/

/-- Every weakly fair execution of the kernel's program terminates with the result array at `G` of the reference's
    aggregated neighbour array, the own features and the two weight matrices — all as launched —, and the seven
    arguments unchanged. -/
theorem run : θ_run defs (onTc (τ := τ) (main (F := Ideal))) ⟨m, fun _ => 0, ρ⟩ fun r => ∀ c : Dev nD,
      r.2.mem ((c : Thread nD τ).loc main_v13)
        = Cert.DualProj.G
            (Cert.ReferenceIdeal.Read.val_main_v12 (F := Ideal) (m ((c : Thread nD τ).loc main_arg0))
              (m ((c : Thread nD τ).loc main_arg2)) (m ((c : Thread nD τ).loc main_arg3)) (m ((c : Thread nD τ).loc main_arg4)))
            (m ((c : Thread nD τ).loc main_arg1)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
      rw [neighArray_eq m c, V_main_arg1 m c, V_main_arg5 m c, V_main_arg6 m c])), (h c).2⟩)
    (Cert.KernelIdeal.Value.run_blocks m ρ)

end Cert.DualProj.KernelSide

end
-- ==== Proof.lean ====
/-
  The kernel and its reference compute one function of their seven arguments, as extended reals.

  Both programs first aggregate neighbour features on the host: each of the 800000 edges contributes its weight times
  the feature row its column index names, added into the row its row index names. The two programs spell this with the
  same operations in the same order, so the aggregated array `N` is ONE term of the arguments on both sides and is
  never opened.

  The reference then forms `S · Ws` and `N · Wn` whole (`S` the own features), lays them side by side and takes the
  maximum with zero. The kernel does the same ten row-blocks at a time: at each grid point it multiplies a 5000-row
  block of `S` and of `N` by the two weight matrices into zero accumulators, takes the maximum with zero, and stores
  the two halves of a [5000, 256] block. Narrowing the operands to bf16 is the identity on extended reals, and a product
  accumulated into zero is the product (`0 + x = x`); beyond that the two sides are the same sums of the same products
  in the same order. No entry needs to be finite for any of this, so the precondition is never used.

  The pieces: `DualProjSpec` states the common function `G`; `ReferenceIsSpec` reads the reference's result as `G`;
  `KernelPayload` reads what one grid point stores; `KernelBlocks` carries the ten blocks to the whole array. The three
  programs each terminate with their arguments unchanged (the frames), and the idealized kernel is the kernel's own text
  read over the extended reals, nothing rewritten (so `preserves` has nothing to state).
-/
import proofs.«173765_j35845797052746_1_alg».proof.Defs
import proofs.«173765_j35845797052746_1_alg».proof.Proof.Gen.Kernel
import proofs.«173765_j35845797052746_1_alg».proof.Proof.Gen.Kernel.Skeleton
import proofs.«173765_j35845797052746_1_alg».proof.Proof.Gen.Kernel.Launch
import proofs.«173765_j35845797052746_1_alg».proof.Proof.Gen.Kernel.Points
import proofs.«173765_j35845797052746_1_alg».proof.Proof.Gen.Kernel.Frame
import proofs.«173765_j35845797052746_1_alg».proof.Proof.Gen.KernelIdeal
import proofs.«173765_j35845797052746_1_alg».proof.Proof.Gen.KernelIdeal.Skeleton
import proofs.«173765_j35845797052746_1_alg».proof.Proof.Gen.KernelIdeal.Launch
import proofs.«173765_j35845797052746_1_alg».proof.Proof.Gen.KernelIdeal.Points
import proofs.«173765_j35845797052746_1_alg».proof.Proof.Gen.KernelIdeal.Frame
import proofs.«173765_j35845797052746_1_alg».proof.Proof.Gen.KernelIdeal.Value
import proofs.«173765_j35845797052746_1_alg».proof.Proof.Gen.ReferenceIdeal
import proofs.«173765_j35845797052746_1_alg».proof.Proof.Gen.ReferenceIdeal.Run
import proofs.«173765_j35845797052746_1_alg».proof.Proof.Gen.ReferenceIdeal.Read
import proofs.«173765_j35845797052746_1_alg».proof.Proof.Gen.Pre_finite_inputs
import Idealize.ShloMosaic.Adequacy
import Idealize.ShloMosaic.Init
import proofs.«173765_j35845797052746_1_alg».proof.Proof.DualProjSpec
import proofs.«173765_j35845797052746_1_alg».proof.Proof.ReferenceIsSpec
import proofs.«173765_j35845797052746_1_alg».proof.Proof.KernelPayload
import proofs.«173765_j35845797052746_1_alg».proof.Proof.KernelBlocks

noncomputable section

namespace Cert.Proof

open Idealize.ShloMosaic Idealize.ShloMosaic.TcCoe Idealize.SL.Sem

/-- The kernel's program, as printed, terminates and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations: there is nothing to preserve. -/
theorem preserves : Cert.preserves_Kernel_KernelIdeal := trivial

/-- From memories that agree on the seven arguments both programs end with the result array at `G` of the aggregated
    neighbour array, the own features and the two weight matrices: the kernel block by block (`KernelSide.run`), the
    reference whole (`RefSide.result_eq` over its run). -/
theorem algebraic : Cert.algebraic_KernelIdeal_ReferenceIdeal := by
  intro m ρ m' ρ' _ hagree
  refine ⟨_, Cert.DualProj.KernelSide.run m ρ, ?_⟩
  refine (θ_run Cert.ReferenceIdeal.defs _ _).mono (fun _ h c => ⟨(h c).1.trans ?_, (h c).2⟩)
    (Cert.ReferenceIdeal.Value.run (F := Ideal) m' ρ')
  refine (Cert.DualProj.RefSide.result_eq
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))).trans ?_
  rw [(hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
